-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128x1 : Shape := ⟨3, ![16384, 128, 1]⟩
abbrev S128x1 : Shape := ⟨2, ![128, 1]⟩
abbrev S_ : Shape := ⟨0, ![]⟩

class Facts : Prop where
  bcast_S_S16384x128x1 : S_.BroadcastsInDim S16384x128x1 (![] : Fin 0 → Fin S16384x128x1.rank)
  reducesTo_S16384x128x1_S_d0_1_2 : S16384x128x1.ReducesTo [0, 1, 2] S_
  h_S_ : 0 < S_.numel
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_arg7 : FVec F S128x1 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  main_v38

def fn_part1 {F : FTy → Type} [FloatOps F] (main_arg4 : FVec F S128x1 .f32) (main_arg5 : FVec F S128x1 .f32) (main_arg6 : FVec F S128x1 .f32) (main_arg7 : FVec F S128x1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S16384x128x1 .f32) (main_arg1 : FVec F S16384x128x1 .f32) (main_arg2 : FVec F S128x1 .f32) (main_arg3 : FVec F S128x1 .f32) (main_arg4 : FVec F S128x1 .f32) (main_arg5 : FVec F S128x1 .f32) (main_arg6 : FVec F S128x1 .f32) (main_arg7 : FVec F S128x1 .f32) : IVec S_ 1 :=
  let main_v0 : FVec F S16384x128x1 .f32 := Host.absf main_arg0
  let main_cst : FVec F S_ .f32 := constant S_ .f32 0x7F800000#32
  let main_v1 : FVec F S16384x128x1 .f32 := broadcastInDim S16384x128x1 ![] bcast_S_S16384x128x1 main_cst
  let main_v2 : IVec S16384x128x1 1 := cmpf .olt main_v0 main_v1
  let main_c : IVec S_ 1 := constantI S_ 1 1#1
  let main_v3 : IVec S_ 1 := (fun x v => Host.reduce IntOp.andi x v reducesTo_S16384x128x1_S_d0_1_2 h_S_) main_v2 main_c
  let main_v4 : FVec F S16384x128x1 .f32 := Host.absf main_arg1
  let main_cst_0 : FVec F S_ .f32 := constant S_ .f32 0x7F800000#32
  let main_v5 : FVec F S16384x128x1 .f32 := broadcastInDim S16384x128x1 ![] bcast_S_S16384x128x1 main_cst_0
  let main_v6 : IVec S16384x128x1 1 := cmpf .olt main_v4 main_v5
  let main_c_1 : IVec S_ 1 := constantI S_ 1 1#1
  let main_v7 : IVec S_ 1 := (fun x v => Host.reduce IntOp.andi x v reducesTo_S16384x128x1_S_d0_1_2 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_arg7 main_v13 main_v16
-- ==== Kernel.lean ====
abbrev S16384x128x1 : Shape := ⟨3, ![16384, 128, 1]⟩
abbrev S128x1 : Shape := ⟨2, ![128, 1]⟩
abbrev S1x128 : Shape := ⟨2, ![1, 128]⟩
abbrev S1024x128x1 : Shape := ⟨3, ![1024, 128, 1]⟩
abbrev S1024x128 : Shape := ⟨2, ![1024, 128]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x128x1, .f32⟩
  | .hbm, ⟨1, _⟩ => ⟨S16384x128x1, .f32⟩
  | .hbm, ⟨2, _⟩ => ⟨S128x1, .f32⟩
  | .hbm, ⟨3, _⟩ => ⟨S128x1, .f32⟩
  | .hbm, ⟨4, _⟩ => ⟨S128x1, .f32⟩
  | .hbm, ⟨5, _⟩ => ⟨S128x1, .f32⟩
  | .hbm, ⟨6, _⟩ => ⟨S128x1, .f32⟩
  | .hbm, ⟨7, _⟩ => ⟨S128x1, .f32⟩
  | .hbm, ⟨8, _⟩ => ⟨S1x128, .f32⟩
  | .hbm, ⟨9, _⟩ => ⟨S1x128, .f32⟩
  | .hbm, ⟨10, _⟩ => ⟨S16384x128x1, .f32⟩
  | .hbm, ⟨11, _⟩ => ⟨S16384x128x1, .f32⟩
  | .local _ .vmem, ⟨0, _⟩ => ⟨S1024x128x1, .f32⟩
  | .local _ .vmem, ⟨1, _⟩ => ⟨S1024x128x1, .f32⟩
  | .local _ .vmem, ⟨2, _⟩ => ⟨S1024x128x1, .f32⟩
  | .local _ .vmem, ⟨3, _⟩ => ⟨S1024x128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S1x128, .f32⟩
  | .local _ .vmem, ⟨9, _⟩ => ⟨S1x128, .f32⟩
  | .local _ .vmem, ⟨10, _⟩ => ⟨S1024x128x1, .f32⟩
  | .local _ .vmem, ⟨11, _⟩ => ⟨S1024x128x1, .f32⟩
  | .local _ .vmem, ⟨12, _⟩ => ⟨S1024x128x1, .f32⟩
  | .local _ .vmem, ⟨13, _⟩ => ⟨S1024x128x1, .f32⟩
  | _, _ => ⟨S16384x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128x1_S1x128 : S128x1.ShapeCasts S1x128
  inb_S1024x128x1_S1024x128x1_0_0_0 : ∀ a, (![0, 0, 0] : Fin 3 → Nat) a + S1024x128x1.size a ≤ S1024x128x1.size a
  h_S1024x128x1 : 0 < S1024x128x1.numel
  shapeCasts_S1024x128x1_S1024x128 : S1024x128x1.ShapeCasts S1024x128
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S1024x128x1 : S1024x128.ShapeCasts S1024x128x1
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128x1.size a ≤ S16384x128x1.size a
  hwx0_0 : ∀ i : grid0.Coords, EltTy.bits .f32 = 32 ∨ (Rect.block (s := S16384x128x1) S1024x128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128x1.size a ≤ S16384x128x1.size a
  hwx0_1 : ∀ i : grid0.Coords, EltTy.bits .f32 = 32 ∨ (Rect.block (s := S16384x128x1) S1024x128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128x1.size a ≤ S16384x128x1.size a
  hwx0_8 : ∀ i : grid0.Coords, EltTy.bits .f32 = 32 ∨ (Rect.block (s := S16384x128x1) S1024x128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128x1.size a ≤ S16384x128x1.size a
  hwx0_9 : ∀ i : grid0.Coords, EltTy.bits .f32 = 32 ∨ (Rect.block (s := S16384x128x1) S1024x128x1.size (cc0_transform_9 i) (hinb0_9 i)).WholeWords (EltTy.packing .f32)

variable [Facts₀]

def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_arg0) S1024x128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S1024x128x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S1024x128x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x128x1 : Shape := ⟨3, ![16384, 128, 1]⟩
abbrev S128x1 : Shape := ⟨2, ![128, 1]⟩
abbrev S16384x128 : Shape := ⟨2, ![16384, 128]⟩
abbrev S16384x1 : Shape := ⟨2, ![16384, 1]⟩
abbrev S1x128x1 : Shape := ⟨3, ![1, 128, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x128x1, .f32⟩
  | .hbm, ⟨1, _⟩ => ⟨S16384x128x1, .f32⟩
  | .hbm, ⟨2, _⟩ => ⟨S128x1, .f32⟩
  | .hbm, ⟨3, _⟩ => ⟨S128x1, .f32⟩
  | .hbm, ⟨4, _⟩ => ⟨S128x1, .f32⟩
  | .hbm, ⟨5, _⟩ => ⟨S128x1, .f32⟩
  | .hbm, ⟨6, _⟩ => ⟨S128x1, .f32⟩
  | .hbm, ⟨7, _⟩ => ⟨S128x1, .f32⟩
  | .hbm, ⟨8, _⟩ => ⟨S16384x128, .f32⟩
  | .hbm, ⟨9, _⟩ => ⟨S16384x128, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S16384x128, .f32⟩
  | .hbm, ⟨19, _⟩ => ⟨S16384x128x1, .f32⟩
  | .hbm, ⟨20, _⟩ => ⟨S1x128x1, .f32⟩
  | .hbm, ⟨21, _⟩ => ⟨S16384x128x1, .f32⟩
  | .hbm, ⟨22, _⟩ => ⟨S16384x128x1, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128x1, .f32⟩
  | .hbm, ⟨29, _⟩ => ⟨S1x128x1, .f32⟩
  | .hbm, ⟨30, _⟩ => ⟨S16384x128x1, .f32⟩
  | .hbm, ⟨31, _⟩ => ⟨S16384x128x1, .f32⟩
  | _, _ => ⟨S16384x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S16384x128x1_S16384x128 : S16384x128x1.ShapeCasts S16384x128
  bcast_S16384x1_S16384x128_0_1 : S16384x1.BroadcastsInDim S16384x128 (![0, 1] : Fin 2 → Fin S16384x128.rank)
  bcast_S16384x128_S16384x128x1_0_1 : S16384x128.BroadcastsInDim S16384x128x1 (![0, 1] : Fin 2 → Fin S16384x128x1.rank)
  bcast_S128x1_S1x128x1_1_2 : S128x1.BroadcastsInDim S1x128x1 (![1, 2] : Fin 2 → Fin S1x128x1.rank)
  bcast_S1x128x1_S16384x128x1_0_1_2 : S1x128x1.BroadcastsInDim S16384x128x1 (![0, 1, 2] : Fin 3 → Fin S16384x128x1.rank)
  dot_S16384x128_S128x1_S16384x1_1_0_0_1_n_n_wf : DotDims.WF S16384x128 S128x1 S16384x1 [1] [0] [0] [1] [] []

variable [Facts₀]

def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.CrossSpec.lean ====
/-
  The cross-compress map on the extended reals.

  Two batches of feature columns x, y : [16384, 128, 1], two weight columns wa, wb : [128, 1] and a bias column
  bias : [128, 1] give one output of the same shape as x:

    out (b, d) = x (b, d) * (sum over k of y (b, k) * wa k) + y (b, d) * (sum over k of x (b, k) * wb k) + bias d.

  Row b of the output depends on row b of x and of y only: each row's two inner products with the weight columns
  scale the row of the other batch, the two scaled rows are added, and the bias is added along the feature axis.
  Both outputs of the unit are this map, at two different pairs of weight columns and two bias columns.
-/
import Idealize.ShloMosaic.PureOps.Ideal
import Idealize.ShloMosaic.Lib.ValueIdx

noncomputable section

open scoped BigOperators

namespace Cert.Cross

open Idealize.ShloMosaic Idealize.ShloMosaic.ValueIdx

/-- Entry (b, d) of the cross-compress map: row b's inner products with the two weight columns scale the other
    batch's entry, and the feature's bias is added. -/
def crossAt (x y : (⟨3, ![16384, 128, 1]⟩ : Shape).Idx → EReal) (wa wb bias : (⟨2, ![128, 1]⟩ : Shape).Idx → EReal)
    (b : Fin 16384) (d : Fin 128) : EReal :=
  x (ix3 b d (0 : Fin 1)) * (∑ k : Fin 128, y (ix3 b k (0 : Fin 1)) * wa (ix2 k (0 : Fin 1)))
    + y (ix3 b d (0 : Fin 1)) * (∑ k : Fin 128, x (ix3 b k (0 : Fin 1)) * wb (ix2 k (0 : Fin 1)))
    + bias (ix2 d (0 : Fin 1))

/-- The cross-compress map as a whole array: entry i is `crossAt` at i's batch and feature coordinates. -/
def cross (x y : (⟨3, ![16384, 128, 1]⟩ : Shape).Idx → EReal) (wa wb bias : (⟨2, ![128, 1]⟩ : Shape).Idx → EReal) :
    (⟨3, ![16384, 128, 1]⟩ : Shape).Idx → EReal :=
  fun i => crossAt x y wa wb bias (i 0) (i 1)

theorem cross_apply (x y : (⟨3, ![16384, 128, 1]⟩ : Shape).Idx → EReal) (wa wb bias : (⟨2, ![128, 1]⟩ : Shape).Idx → EReal)
    (b : Fin 16384) (d : Fin 128) (u : Fin 1) :
    cross x y wa wb bias (ix3 b d u) = crossAt x y wa wb bias b d := rfl

end Cert.Cross

end
-- ==== Proof.LibTrailingUnit.lean ====
/-
  Reshapes that only add or drop an axis of extent one, read at an index given by its coordinates, for any extents
  and any element type.

  An [a, b, 1] array and an [a, b] array hold the same elements in the same row-major order, so dropping the trailing
  unit axis reads entry (p, q) at (p, q, 0) and adding it reads entry (p, q, 0) at (p, q). Likewise an [a, 1] column
  laid out as a [1, a] row reads entry (0, q) at the column's row q.
-/
import Idealize.ShloMosaic.Lib.Pipeline.Value
import Idealize.ShloMosaic.Lib.ValueIdx

noncomputable section

namespace Cert.Lib.TrailingUnit

open Idealize.ShloMosaic Idealize.ShloMosaic.ValueIdx

variable {α : Type}

/-- Dropping a trailing unit axis, [a, b, 1] → [a, b]: entry (p, q) is the operand's entry (p, q, 0). -/
theorem dropLast_apply {a b : Nat} (v : (⟨3, ![a, b, 1]⟩ : Shape).Idx → α)
    (h : (⟨3, ![a, b, 1]⟩ : Shape).ShapeCasts ⟨2, ![a, b]⟩) (p : Fin a) (q : Fin b) :
    shapeCast ⟨2, ![a, b]⟩ v h (ix2 p q) = v (ix3 p q (0 : Fin 1)) := by
  refine shapeCast_apply v h (ix2 p q) (ix3 p q (0 : Fin 1)) ?_
  rw [Shape.rowMajor_val_three, Shape.rowMajor_val_two]
  show (p.val * b + q.val) * 1 + 0 = p.val * b + q.val
  omega

/-- Adding a trailing unit axis, [a, b] → [a, b, 1]: entry (p, q, u) is the operand's entry (p, q). -/
theorem addLast_apply {a b : Nat} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) := by
  refine shapeCast_apply v h (ix3 p q u) (ix2 p q) ?_
  rw [Shape.rowMajor_val_two, Shape.rowMajor_val_three]
  show p.val * b + q.val = (p.val * b + q.val) * 1 + u.val
  have := u.isLt
  omega

/-- A column laid out as a row, [a, 1] → [1, a]: entry (u, q) of the row is the column's row q. -/
theorem colAsRow_apply {a : Nat} (v : (⟨2, ![a, 1]⟩ : Shape).Idx → α)
    (h : (⟨2, ![a, 1]⟩ : Shape).ShapeCasts ⟨2, ![1, a]⟩) (u : Fin 1) (q : Fin a) :
    shapeCast ⟨2, ![1, a]⟩ v h (ix2 u q) = v (ix2 q (0 : Fin 1)) := by
  refine shapeCast_apply v h (ix2 u q) (ix2 q (0 : Fin 1)) ?_
  rw [Shape.rowMajor_val_two, Shape.rowMajor_val_two]
  show q.val * 1 + 0 = u.val * a + q.val
  have := u.isLt
  have hu : u.val = 0 := by omega
  rw [hu]
  omega

end Cert.Lib.TrailingUnit

end
-- ==== Proof.CrossReference.lean ====
/-
  The reference computes the cross-compress map.

  The reference drops the trailing unit axis of both batches, takes each batch's matrix-vector product with a
  weight column (on the extended reals a sum of 128 products per row), broadcasts the [16384, 1] products along
  the feature axis, multiplies each by the other batch entry by entry, adds the two, puts the unit axis back and
  adds the bias column broadcast over the batch. Entry by entry that is the map of the specification; the second
  result is the same chain of operations at the other weights and bias.
-/
import proofs.«131935_j86655260164823_2_alg».proof.Proof.Gen.ReferenceIdeal.Read
import proofs.«131935_j86655260164823_2_alg».proof.Proof.CrossSpec
import proofs.«131935_j86655260164823_2_alg».proof.Proof.LibTrailingUnit

noncomputable section

open scoped BigOperators

namespace Cert.ReferenceIdeal.Cross

open Cert.ReferenceIdeal Cert.ReferenceIdeal.Facts₀ Cert.ReferenceIdeal.Read Cert.Cross Idealize.ShloMosaic Idealize.ShloMosaic.ValueIdx

/-- A batch with its trailing unit axis dropped, entry (b, d). -/
theorem flat_apply (x : FVec Ideal S16384x128x1 .f32) (b : Fin 16384) (d : Fin 128) :
    val_main_v1 (F := Ideal) x (ix2 b d) = x (ix3 b d (0 : Fin 1)) :=
  Cert.Lib.TrailingUnit.dropLast_apply x shapeCasts_S16384x128x1_S16384x128 b d

/-- A batch's matrix-vector product with a weight column, row b: the inner product of the batch's row b with the
    column. -/
theorem dot_apply (x : FVec Ideal S16384x128x1 .f32) (w : FVec Ideal S128x1 .f32) (b : Fin 16384) :
    val_main_v2 (F := Ideal) x w (ix2 b (0 : Fin 1))
      = ∑ k : Fin 128, x (ix3 b k (0 : Fin 1)) * w (ix2 k (0 : Fin 1)) := by
  refine (val_main_v2_apply x w (ix2 b (0 : Fin 1))).trans (Finset.sum_congr rfl fun k _ => ?_)
  have hl : lidx_main_v2 (ix2 b (0 : Fin 1)) k = ix2 b k :=
    funext fun a => Fin.ext (by match a with | ⟨0, _⟩ => rfl | ⟨1, _⟩ => rfl)
  have hr : ridx_main_v2 (ix2 b (0 : Fin 1)) k = ix2 k (0 : Fin 1) :=
    funext fun a => Fin.ext (by match a with | ⟨0, _⟩ => rfl | ⟨1, _⟩ => rfl)
  rw [hl, hr]
  exact congrArg (· * w (ix2 k (0 : Fin 1))) (flat_apply x b k)

/-- THE FIRST RESULT is the cross-compress map of the two batches at its weight columns and bias column. -/
theorem item_eq (x0 x1 : FVec Ideal S16384x128x1 .f32) (wa wb bias : FVec Ideal S128x1 .f32) :
    val_main_v14 (F := Ideal) x0 x1 wa wb bias = cross x0 x1 wa wb bias := by
  funext i
  obtain ⟨b, d, u, rfl⟩ : ∃ (b : Fin 16384) (d : Fin 128) (u : Fin 1), i = ix3 b d u := ⟨i 0, i 1, i 2, eq_ix3 i⟩
  rw [cross_apply]
  unfold crossAt
  have h11 : idx_main_v11 (ix3 b d u) = ix2 b d :=
    funext fun a => Fin.ext (by match a with | ⟨0, _⟩ => rfl | ⟨1, _⟩ => rfl)
  have h6 : idx_main_v6 (ix2 b d) = ix2 b (0 : Fin 1) :=
    funext fun a => Fin.ext (by match a with | ⟨0, _⟩ => rfl | ⟨1, _⟩ => rfl)
  have h8 : idx_main_v8 (ix2 b d) = ix2 b (0 : Fin 1) :=
    funext fun a => Fin.ext (by match a with | ⟨0, _⟩ => rfl | ⟨1, _⟩ => rfl)
  have h13 : idx_main_v13 (ix3 b d u) = ix3 (0 : Fin 1) d (0 : Fin 1) :=
    funext fun a => Fin.ext (by match a with | ⟨0, _⟩ => rfl | ⟨1, _⟩ => rfl | ⟨2, _⟩ => rfl)
  have h12 : idx_main_v12 (ix3 (0 : Fin 1) d (0 : Fin 1)) = ix2 d (0 : Fin 1) :=
    funext fun a => Fin.ext (by match a with | ⟨0, _⟩ => rfl | ⟨1, _⟩ => rfl)
  rw [val_main_v14_apply, val_main_v11_apply, h11, val_main_v10_apply, val_main_v7_apply, val_main_v9_apply,
    val_main_v6_apply, h6, val_main_v8_apply, h8, val_main_v13_apply, h13, val_main_v12_apply, h12]
  rw [show val_main_v0 (F := Ideal) x0 = val_main_v1 (F := Ideal) x0 from rfl,
    show val_main_v3 (F := Ideal) x0 wb = val_main_v2 (F := Ideal) x0 wb from rfl,
    flat_apply, flat_apply, dot_apply, dot_apply]
  rfl

/-- THE SECOND RESULT is the same chain of operations at the other weight columns and bias column. -/
theorem entity_eq (x0 x1 : FVec Ideal S16384x128x1 .f32) (wa wb bias : FVec Ideal S128x1 .f32) :
    val_main_v23 (F := Ideal) x0 x1 wa wb bias = cross x0 x1 wa wb bias :=
  (show val_main_v23 (F := Ideal) x0 x1 wa wb bias = val_main_v14 (F := Ideal) x0 x1 wa wb bias from rfl).trans
    (item_eq x0 x1 wa wb bias)

end Cert.ReferenceIdeal.Cross

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.CrossBlock.lean ====
/-
  One block of the kernel, read at an entry, on the extended reals.

  At a grid point the body holds a [1024, 128, 1] block v of the first batch, the same block e of the second, two
  weight columns wa, wb : [128, 1] and a bias row : [1, 128]. It drops the trailing unit axis of v and e, forms the
  two matrix-vector products e · wa and v · wb into zero accumulators (a change of float format on the way in is the
  identity here), broadcasts each [1024, 1] product along the feature axis, and stores

    v (p, q) * (e · wa) p + e (p, q) * (v · wb) p + bias q

  with the trailing unit axis put back. Both stores of the body are this one term at their own weights and bias.
-/
import proofs.«131935_j86655260164823_2_alg».proof.Proof.Gen.KernelIdeal.Skeleton
import proofs.«131935_j86655260164823_2_alg».proof.Proof.LibMatmulPlain
import proofs.«131935_j86655260164823_2_alg».proof.Proof.LibKeepdims
import proofs.«131935_j86655260164823_2_alg».proof.Proof.LibTrailingUnit
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The first store's value is the second store's term at its own weights and bias: the two computations differ in
    nothing but which operands they read. -/
theorem pay6_eq {F : FTy → Type} [FloatOps F] (v e : Vec F S1024x128x1 .f32) (wa wb : Vec F S128x1 .f32)
    (bias : Vec F S1x128 .f32) : k0_pay6 v e wa wb bias = k0_pay1 (k0_pay7 v e wa wb) bias := rfl

/-- A matrix-vector product of a block with a weight column, entry p: the inner product of the block's row p with
    the column. -/
theorem rowDot_apply (x : FVec Ideal S1024x128x1 .f32) (w : FVec Ideal S128x1 .f32) (p : Fin 1024) :
    matmul (F := Ideal) dot_S1024x128_S128x1_S1024x1_1_0_0_1_n_n none
        (truncf .bf16 (shapeCast S1024x128 x shapeCasts_S1024x128x1_S1024x128) bitsLt_bf16_f32)
        (truncf .bf16 w bitsLt_bf16_f32) (constant S1024x1 .f32 0x00000000#32) (ix2 p (0 : Fin 1))
      = ∑ k : Fin 128, x (ix3 p k (0 : Fin 1)) * w (ix2 k (0 : Fin 1)) := by
  refine (Cert.LibMatmulPlain.matmul_zero_apply (M := 1024) (K := 128) (N := 1)
    dot_S1024x128_S128x1_S1024x1_1_0_0_1_n_n_wf none _ _ p (0 : Fin 1)).trans ?_
  refine Finset.sum_congr rfl fun k _ => ?_
  exact congrArg (· * w (ix2 k (0 : Fin 1)))
    (Cert.Lib.TrailingUnit.dropLast_apply x shapeCasts_S1024x128x1_S1024x128 p k)

/-- The scaled-and-added rows before the bias, entry (p, q). -/
theorem mix_apply (v e : FVec Ideal S1024x128x1 .f32) (wa wb : FVec Ideal S128x1 .f32) (p : Fin 1024) (q : Fin 128) :
    k0_pay7 (F := Ideal) v e wa wb (ix2 p q)
      = v (ix3 p q (0 : Fin 1)) * (∑ k : Fin 128, e (ix3 p k (0 : Fin 1)) * wa (ix2 k (0 : Fin 1)))
        + e (ix3 p q (0 : Fin 1)) * (∑ k : Fin 128, v (ix3 p k (0 : Fin 1)) * wb (ix2 k (0 : Fin 1))) := by
  unfold k0_pay7 k0_pay2 k0_pay3 k0_pay4 k0_pay5
  show (shapeCast S1024x128 v shapeCasts_S1024x128x1_S1024x128) (ix2 p q)
        * (broadcastTo S1024x128 _ broadcasts_S1024x1_S1024x128) (ix2 p q)
      + (shapeCast S1024x128 e shapeCasts_S1024x128x1_S1024x128) (ix2 p q)
        * (broadcastTo S1024x128 _ broadcasts_S1024x1_S1024x128) (ix2 p q) = _
  refine congrArg₂ (· + ·) (congrArg₂ (· * ·) ?_ ?_) (congrArg₂ (· * ·) ?_ ?_)
  · exact Cert.Lib.TrailingUnit.dropLast_apply v shapeCasts_S1024x128x1_S1024x128 p q
  · exact (Cert.Lib.Keepdims.bcastCol_apply _ broadcasts_S1024x1_S1024x128 p q).trans (rowDot_apply e wa p)
  · exact Cert.Lib.TrailingUnit.dropLast_apply e shapeCasts_S1024x128x1_S1024x128 p q
  · exact (Cert.Lib.Keepdims.bcastCol_apply _ broadcasts_S1024x1_S1024x128 p q).trans (rowDot_apply v wb p)

/-- THE BLOCK'S STORED VALUE at entry (p, q, u): row p of v and of e, the two weight columns, the bias at feature q. -/
theorem block_apply (v e : FVec Ideal S1024x128x1 .f32) (wa wb : FVec Ideal S128x1 .f32) (bias : FVec Ideal S1x128 .f32)
    (p : Fin 1024) (q : Fin 128) (u : Fin 1) :
    k0_pay1 (F := Ideal) (k0_pay7 (F := Ideal) v e wa wb) bias (ix3 p q u)
      = v (ix3 p q (0 : Fin 1)) * (∑ k : Fin 128, e (ix3 p k (0 : Fin 1)) * wa (ix2 k (0 : Fin 1)))
        + e (ix3 p q (0 : Fin 1)) * (∑ k : Fin 128, v (ix3 p k (0 : Fin 1)) * wb (ix2 k (0 : Fin 1)))
        + bias (ix2 (0 : Fin 1) q) := by
  generalize hM : k0_pay7 (F := Ideal) v e wa wb = M
  unfold k0_pay1
  refine (Cert.Lib.TrailingUnit.addLast_apply _ shapeCasts_S1024x128_S1024x128x1 p q u).trans ?_
  show M (ix2 p q) + (broadcastTo S1024x128 (shapeCast S1x128 bias shapeCasts_S1x128_S1x128) broadcasts_S1x128_S1024x128) (ix2 p q) = _
  refine congrArg₂ (· + ·) ?_ ?_
  · rw [← hM]; exact mix_apply v e wa wb p q
  · refine (broadcastTo_1b_ab_apply _ broadcasts_S1x128_S1024x128 p q).trans ?_
    rw [shapeCast_self]

end Cert.KernelIdeal.Block

end
-- ==== Proof.CrossReads.lean ====
/-
  Which entries of the arguments each block holds at a grid point.

  The grid has 16 points. At point t the two batch windows and the two output windows hold rows 1024 t … 1024 t + 1023
  of their [16384, 128, 1] arrays, all 128 features; the four weight windows hold their whole [128, 1] column at every
  point; and the two bias windows hold the whole [1, 128] row that the host laid out from the [128, 1] bias column
  before the call, so the row's entry q is the column's row q. The block index of each window at each of the 16
  points is decided once; each block entry is then read where its array coordinate says: block index times block
  extent plus the coordinate inside the block.
-/
import proofs.«131935_j86655260164823_2_alg».proof.Proof.Gen.KernelIdeal.Value
import proofs.«131935_j86655260164823_2_alg».proof.Proof.LibTrailingUnit
import Idealize.ShloMosaic.Lib.StableHlo.Run
import Idealize.ShloMosaic.Lib.Pipeline.Value
import Idealize.ShloMosaic.Lib.ValueIdx

noncomputable section

namespace Cert.KernelIdeal.Reads

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-- The grid's 16 points. -/
theorem points : cfg0.N = 16 := N_0

/-- The batch row that row p of point t's block is: 1024 t + p. -/
def rowOf (t : Fin cfg0.N) (p : Fin 1024) : Fin 16384 :=
  ⟨t.val * 1024 + p.val, by have h := t.isLt; have hN := points; have := p.isLt; omega⟩

theorem rowOf_val (t : Fin cfg0.N) (p : Fin 1024) : (rowOf t p).val = t.val * 1024 + p.val := rfl

/-! ## The block index of each window at each point, decided over the grid -/

theorem idx_rows0 : ∀ t : Fin cfg0.N, win0_0.index t (0 : Fin 3) = t.val ∧ win0_0.index t (1 : Fin 3) = 0
    ∧ win0_0.index t (2 : Fin 3) = 0 :=
  (by decide +kernel : ∀ t : Fin grid0.N, _)

theorem idx_rows1 : ∀ t : Fin cfg0.N, win0_1.index t (0 : Fin 3) = t.val ∧ win0_1.index t (1 : Fin 3) = 0
    ∧ win0_1.index t (2 : Fin 3) = 0 :=
  (by decide +kernel : ∀ t : Fin grid0.N, _)

theorem idx_rows8 : ∀ t : Fin cfg0.N, win0_8.index t (0 : Fin 3) = t.val ∧ win0_8.index t (1 : Fin 3) = 0
    ∧ win0_8.index t (2 : Fin 3) = 0 :=
  (by decide +kernel : ∀ t : Fin grid0.N, _)

theorem idx_rows9 : ∀ t : Fin cfg0.N, win0_9.index t (0 : Fin 3) = t.val ∧ win0_9.index t (1 : Fin 3) = 0
    ∧ win0_9.index t (2 : Fin 3) = 0 :=
  (by decide +kernel : ∀ t : Fin grid0.N, _)

theorem idx_fixed2 : ∀ t : Fin cfg0.N, win0_2.index t (0 : Fin 2) = 0 ∧ win0_2.index t (1 : Fin 2) = 0 :=
  (by decide +kernel : ∀ t : Fin grid0.N, _)

theorem idx_fixed3 : ∀ t : Fin cfg0.N, win0_3.index t (0 : Fin 2) = 0 ∧ win0_3.index t (1 : Fin 2) = 0 :=
  (by decide +kernel : ∀ t : Fin grid0.N, _)

theorem idx_fixed4 : ∀ t : Fin cfg0.N, win0_4.index t (0 : Fin 2) = 0 ∧ win0_4.index t (1 : Fin 2) = 0 :=
  (by decide +kernel : ∀ t : Fin grid0.N, _)

theorem idx_fixed5 : ∀ t : Fin cfg0.N, win0_5.index t (0 : Fin 2) = 0 ∧ win0_5.index t (1 : Fin 2) = 0 :=
  (by decide +kernel : ∀ t : Fin grid0.N, _)

theorem idx_fixed6 : ∀ t : Fin cfg0.N, win0_6.index t (0 : Fin 2) = 0 ∧ win0_6.index t (1 : Fin 2) = 0 :=
  (by decide +kernel : ∀ t : Fin grid0.N, _)

theorem idx_fixed7 : ∀ t : Fin cfg0.N, win0_7.index t (0 : Fin 2) = 0 ∧ win0_7.index t (1 : Fin 2) = 0 :=
  (by decide +kernel : ∀ t : Fin grid0.N, _)

/-! ## The bias rows as the host laid them out before the call -/

/-- The first bias row the call is given is the first bias column laid out as a row. -/
theorem V_bias_item (c : Dev nD) :
    (V m c main_v0 : S1x128.Idx → EReal)
      = shapeCast S1x128 (m ((c : Thread nD τ).loc main_arg6) : S128x1.Idx → EReal) shapeCasts_S128x1_S1x128 := by
  dsimp only [Gen.V, Gen.hostOps0]; after_results; rfl

/-- The second bias row the call is given is the second bias column laid out as a row. -/
theorem V_bias_entity (c : Dev nD) :
    (V m c main_v1 : S1x128.Idx → EReal)
      = shapeCast S1x128 (m ((c : Thread nD τ).loc main_arg7) : S128x1.Idx → EReal) shapeCasts_S128x1_S1x128 := by
  dsimp only [Gen.V, Gen.hostOps0]; after_results; rfl

/-! ## Each input block's entries -/

/-- Row p of the first batch's block at point t is row 1024 t + p of the first batch. -/
theorem read_v (c : Dev nD) (t : Fin cfg0.N) (p : Fin 1024) (q : Fin 128) :
    (iblk m c 0 t : FVec Ideal S1024x128x1 .f32) (ix3 p q (0 : Fin 1))
      = (m ((c : Thread nD τ).loc main_arg0) : FVec Ideal S16384x128x1 .f32) (ix3 (rowOf t p) q (0 : Fin 1)) := by
  obtain ⟨e0, e1, e2⟩ := idx_rows0 t
  rw [← V_main_arg0 m c]
  show V m c main_arg0 (((cfg0.win 0).blk t).view.emb (ix3 p q (0 : Fin 1))) = V m c main_arg0 (ix3 (rowOf t p) q (0 : Fin 1))
  refine congrArg (V m c main_arg0) (funext fun a => Fin.ext ?_)
  match a with
  | ⟨0, _⟩ => show win0_0.index t (0 : Fin 3) * 1024 + 1 * p.val = t.val * 1024 + p.val; rw [e0]; omega
  | ⟨1, _⟩ => show win0_0.index t (1 : Fin 3) * 128 + 1 * q.val = q.val; rw [e1]; omega
  | ⟨2, _⟩ => show win0_0.index t (2 : Fin 3) * 1 + 1 * 0 = 0; rw [e2]

/-- Row p of the second batch's block at point t is row 1024 t + p of the second batch. -/
theorem read_e (c : Dev nD) (t : Fin cfg0.N) (p : Fin 1024) (q : Fin 128) :
    (iblk m c 1 t : FVec Ideal S1024x128x1 .f32) (ix3 p q (0 : Fin 1))
      = (m ((c : Thread nD τ).loc main_arg1) : FVec Ideal S16384x128x1 .f32) (ix3 (rowOf t p) q (0 : Fin 1)) := by
  obtain ⟨e0, e1, e2⟩ := idx_rows1 t
  rw [← V_main_arg1 m c]
  show V m c main_arg1 (((cfg0.win 1).blk t).view.emb (ix3 p q (0 : Fin 1))) = V m c main_arg1 (ix3 (rowOf t p) q (0 : Fin 1))
  refine congrArg (V m c main_arg1) (funext fun a => Fin.ext ?_)
  match a with
  | ⟨0, _⟩ => show win0_1.index t (0 : Fin 3) * 1024 + 1 * p.val = t.val * 1024 + p.val; rw [e0]; omega
  | ⟨1, _⟩ => show win0_1.index t (1 : Fin 3) * 128 + 1 * q.val = q.val; rw [e1]; omega
  | ⟨2, _⟩ => show win0_1.index t (2 : Fin 3) * 1 + 1 * 0 = 0; rw [e2]

/-- The first weight window holds its whole column at every point. -/
theorem read_w2 (c : Dev nD) (t : Fin cfg0.N) (k : Fin 128) :
    (iblk m c 2 t : FVec Ideal S128x1 .f32) (ix2 k (0 : Fin 1))
      = (m ((c : Thread nD τ).loc main_arg2) : FVec Ideal S128x1 .f32) (ix2 k (0 : Fin 1)) := by
  obtain ⟨e0, e1⟩ := idx_fixed2 t
  rw [← V_main_arg2 m c]
  show V m c main_arg2 (((cfg0.win 2).blk t).view.emb (ix2 k (0 : Fin 1))) = V m c main_arg2 (ix2 k (0 : Fin 1))
  refine congrArg (V m c main_arg2) (funext fun a => Fin.ext ?_)
  match a with
  | ⟨0, _⟩ => show win0_2.index t (0 : Fin 2) * 128 + 1 * k.val = k.val; rw [e0]; omega
  | ⟨1, _⟩ => show win0_2.index t (1 : Fin 2) * 1 + 1 * 0 = 0; rw [e1]

/-- The second weight window holds its whole column at every point. -/
theorem read_w3 (c : Dev nD) (t : Fin cfg0.N) (k : Fin 128) :
    (iblk m c 3 t : FVec Ideal S128x1 .f32) (ix2 k (0 : Fin 1))
      = (m ((c : Thread nD τ).loc main_arg3) : FVec Ideal S128x1 .f32) (ix2 k (0 : Fin 1)) := by
  obtain ⟨e0, e1⟩ := idx_fixed3 t
  rw [← V_main_arg3 m c]
  show V m c main_arg3 (((cfg0.win 3).blk t).view.emb (ix2 k (0 : Fin 1))) = V m c main_arg3 (ix2 k (0 : Fin 1))
  refine congrArg (V m c main_arg3) (funext fun a => Fin.ext ?_)
  match a with
  | ⟨0, _⟩ => show win0_3.index t (0 : Fin 2) * 128 + 1 * k.val = k.val; rw [e0]; omega
  | ⟨1, _⟩ => show win0_3.index t (1 : Fin 2) * 1 + 1 * 0 = 0; rw [e1]

/-- The third weight window holds its whole column at every point. -/
theorem read_w4 (c : Dev nD) (t : Fin cfg0.N) (k : Fin 128) :
    (iblk m c 4 t : FVec Ideal S128x1 .f32) (ix2 k (0 : Fin 1))
      = (m ((c : Thread nD τ).loc main_arg4) : FVec Ideal S128x1 .f32) (ix2 k (0 : Fin 1)) := by
  obtain ⟨e0, e1⟩ := idx_fixed4 t
  rw [← V_main_arg4 m c]
  show V m c main_arg4 (((cfg0.win 4).blk t).view.emb (ix2 k (0 : Fin 1))) = V m c main_arg4 (ix2 k (0 : Fin 1))
  refine congrArg (V m c main_arg4) (funext fun a => Fin.ext ?_)
  match a with
  | ⟨0, _⟩ => show win0_4.index t (0 : Fin 2) * 128 + 1 * k.val = k.val; rw [e0]; omega
  | ⟨1, _⟩ => show win0_4.index t (1 : Fin 2) * 1 + 1 * 0 = 0; rw [e1]

/-- The fourth weight window holds its whole column at every point. -/
theorem read_w5 (c : Dev nD) (t : Fin cfg0.N) (k : Fin 128) :
    (iblk m c 5 t : FVec Ideal S128x1 .f32) (ix2 k (0 : Fin 1))
      = (m ((c : Thread nD τ).loc main_arg5) : FVec Ideal S128x1 .f32) (ix2 k (0 : Fin 1)) := by
  obtain ⟨e0, e1⟩ := idx_fixed5 t
  rw [← V_main_arg5 m c]
  show V m c main_arg5 (((cfg0.win 5).blk t).view.emb (ix2 k (0 : Fin 1))) = V m c main_arg5 (ix2 k (0 : Fin 1))
  refine congrArg (V m c main_arg5) (funext fun a => Fin.ext ?_)
  match a with
  | ⟨0, _⟩ => show win0_5.index t (0 : Fin 2) * 128 + 1 * k.val = k.val; rw [e0]; omega
  | ⟨1, _⟩ => show win0_5.index t (1 : Fin 2) * 1 + 1 * 0 = 0; rw [e1]

/-- Entry q of the first bias row is row q of the first bias column, at every point. -/
theorem read_bias_item (c : Dev nD) (t : Fin cfg0.N) (q : Fin 128) :
    (iblk m c 6 t : FVec Ideal S1x128 .f32) (ix2 (0 : Fin 1) q)
      = (m ((c : Thread nD τ).loc main_arg6) : FVec Ideal S128x1 .f32) (ix2 q (0 : Fin 1)) := by
  obtain ⟨e0, e1⟩ := idx_fixed6 t
  have hemb : ((cfg0.win 6).blk t).view.emb (ix2 (0 : Fin 1) q) = (ix2 (0 : Fin 1) q : S1x128.Idx) :=
    funext fun a => Fin.ext (by
      match a with
      | ⟨0, _⟩ => show win0_6.index t (0 : Fin 2) * 1 + 1 * 0 = 0; rw [e0]
      | ⟨1, _⟩ => show win0_6.index t (1 : Fin 2) * 128 + 1 * q.val = q.val; rw [e1]; omega)
  show V m c main_v0 (((cfg0.win 6).blk t).view.emb (ix2 (0 : Fin 1) q)) = _
  rw [hemb]
  exact (congrFun (V_bias_item m c) (ix2 (0 : Fin 1) q)).trans
    (Cert.Lib.TrailingUnit.colAsRow_apply _ shapeCasts_S128x1_S1x128 (0 : Fin 1) q)

/-- Entry q of the second bias row is row q of the second bias column, at every point. -/
theorem read_bias_entity (c : Dev nD) (t : Fin cfg0.N) (q : Fin 128) :
    (iblk m c 7 t : FVec Ideal S1x128 .f32) (ix2 (0 : Fin 1) q)
      = (m ((c : Thread nD τ).loc main_arg7) : FVec Ideal S128x1 .f32) (ix2 q (0 : Fin 1)) := by
  obtain ⟨e0, e1⟩ := idx_fixed7 t
  have hemb : ((cfg0.win 7).blk t).view.emb (ix2 (0 : Fin 1) q) = (ix2 (0 : Fin 1) q : S1x128.Idx) :=
    funext fun a => Fin.ext (by
      match a with
      | ⟨0, _⟩ => show win0_7.index t (0 : Fin 2) * 1 + 1 * 0 = 0; rw [e0]
      | ⟨1, _⟩ => show win0_7.index t (1 : Fin 2) * 128 + 1 * q.val = q.val; rw [e1]; omega)
  show V m c main_v1 (((cfg0.win 7).blk t).view.emb (ix2 (0 : Fin 1) q)) = _
  rw [hemb]
  exact (congrFun (V_bias_entity m c) (ix2 (0 : Fin 1) q)).trans
    (Cert.Lib.TrailingUnit.colAsRow_apply _ shapeCasts_S128x1_S1x128 (0 : Fin 1) q)

/-! ## Where each output block's entries land -/

/-- Entry (p, q, u) of the first output's block at point t lands at row 1024 t + p of the first output. -/
theorem emb_item (t : Fin cfg0.N) (p : Fin 1024) (q : Fin 128) (u : Fin 1) :
    ((cfg0.win 8).blk t).view.emb (ix3 p q u) = (ix3 (rowOf t p) q u : S16384x128x1.Idx) := by
  obtain ⟨e0, e1, e2⟩ := idx_rows8 t
  refine funext fun a => Fin.ext ?_
  match a with
  | ⟨0, _⟩ => show win0_8.index t (0 : Fin 3) * 1024 + 1 * p.val = t.val * 1024 + p.val; rw [e0]; omega
  | ⟨1, _⟩ => show win0_8.index t (1 : Fin 3) * 128 + 1 * q.val = q.val; rw [e1]; omega
  | ⟨2, _⟩ => show win0_8.index t (2 : Fin 3) * 1 + 1 * u.val = u.val; rw [e2]; omega

/-- Entry (p, q, u) of the second output's block at point t lands at row 1024 t + p of the second output. -/
theorem emb_entity (t : Fin cfg0.N) (p : Fin 1024) (q : Fin 128) (u : Fin 1) :
    ((cfg0.win 9).blk t).view.emb (ix3 p q u) = (ix3 (rowOf t p) q u : S16384x128x1.Idx) := by
  obtain ⟨e0, e1, e2⟩ := idx_rows9 t
  refine funext fun a => Fin.ext ?_
  match a with
  | ⟨0, _⟩ => show win0_9.index t (0 : Fin 3) * 1024 + 1 * p.val = t.val * 1024 + p.val; rw [e0]; omega
  | ⟨1, _⟩ => show win0_9.index t (1 : Fin 3) * 128 + 1 * q.val = q.val; rw [e1]; omega
  | ⟨2, _⟩ => show win0_9.index t (2 : Fin 3) * 1 + 1 * u.val = u.val; rw [e2]; omega

end Cert.KernelIdeal.Reads

end
-- ==== Proof.CrossItem.lean ====
/-
  The first output of the kernel is the cross-compress map.

  At grid point t the body stores, into the block it writes back to this output, the block term of the kernel at the
  point's input blocks. Read entry by entry, with each input block's entries placed in their arrays, that is the
  cross-compress map of the two batches at the first and third weight columns and the first bias column restricted to rows
  1024 t … 1024 t + 1023. The 16 blocks tile the output (row r is in the block of point r / 1024), so after the last
  point the whole array holds the map.
-/
import proofs.«131935_j86655260164823_2_alg».proof.Proof.Gen.KernelIdeal.Value
import proofs.«131935_j86655260164823_2_alg».proof.Proof.CrossSpec
import proofs.«131935_j86655260164823_2_alg».proof.Proof.CrossBlock
import proofs.«131935_j86655260164823_2_alg».proof.Proof.CrossReads

noncomputable section

open scoped BigOperators

namespace Cert.KernelIdeal.Item

open Cert.KernelIdeal Cert.KernelIdeal.Gen Cert.KernelIdeal.Reads Cert.Cross
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- What this output should hold: the cross-compress map of the two batches at the first and third weight columns and the first bias column. -/
abbrev result (c : Dev nD) : S16384x128x1.Idx → EReal :=
  cross (m ((c : Thread nD τ).loc main_arg0)) (m ((c : Thread nD τ).loc main_arg1))
    (m ((c : Thread nD τ).loc main_arg2)) (m ((c : Thread nD τ).loc main_arg4)) (m ((c : Thread nD τ).loc main_arg6))

/-- WHAT POINT t WRITES BACK is block t of the map. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero zero3]
  simp only [View.ld_unit_zero (S := S1024x128x1) zero3, View.ld_unit_zero (S := S128x1) zero2,
    View.ld_unit_zero (S := S1x128) zero2]
  rw [Cert.KernelIdeal.Block.pay6_eq]
  refine funext fun (j : S1024x128x1.Idx) => ?_
  obtain ⟨p, q, u, rfl⟩ : ∃ (p : Fin 1024) (q : Fin 128) (u : Fin 1), j = ix3 p q u := ⟨j 0, j 1, j 2, eq_ix3 j⟩
  show k0_pay1 (F := Ideal) (k0_pay7 (F := Ideal) (iblk m c 0 t) (iblk m c 1 t) (iblk m c 2 t) (iblk m c 4 t))
        (iblk m c 6 t) (ix3 p q u)
      = result m c (((cfg0.win 8).blk t).view.emb (ix3 p q u))
  rw [emb_item t p q u]
  refine (Cert.KernelIdeal.Block.block_apply (iblk m c 0 t) (iblk m c 1 t) (iblk m c 2 t) (iblk m c 4 t)
    (iblk m c 6 t) p q u).trans ?_
  show _ = crossAt _ _ _ _ _ (rowOf t p) q
  unfold crossAt
  simp only [read_v m c t, read_e m c t, read_w2 m c t, read_w4 m c t, read_bias_item m c t]

/-- An index of the output is in point t's block iff each coordinate is in the block's range on its axis. -/
theorem mem_blk (t : Fin cfg0.N) (i : S16384x128x1.Idx) :
    i ∈ ((cfg0.win 8).blk t).view.set ↔ ∀ a : Fin 3, win0_8.index t a * S1024x128x1.size a ≤ (i a).val
      ∧ (i a).val < win0_8.index t a * S1024x128x1.size a + S1024x128x1.size a := by
  show i ∈ ((View.whole main_v2_0).slice (win0_8.rect t)).set ↔ _
  rw [View.set_slice_whole, Rect.mem_set_unit]
  exact Iff.rfl

/-- The blocks tile the output: row r lies in the block of point r / 1024. -/
theorem cover (i : S16384x128x1.Idx) :
    ∃ t : Fin cfg0.N, (cfg0.win 8).flush t = true ∧ i ∈ ((cfg0.win 8).blk t).view.set := by
  have hi0 : (i 0).val < 16384 := (i 0).isLt
  have hi1 : (i 1).val < 128 := (i 1).isLt
  have hi2 : (i 2).val < 1 := (i 2).isLt
  let t : Fin cfg0.N := ⟨(i 0).val / 1024, by rw [points]; omega⟩
  have htv : t.val = (i 0).val / 1024 := rfl
  obtain ⟨e0, e1, e2⟩ := idx_rows8 t
  refine ⟨t, flush0_8 t, ?_⟩
  rw [mem_blk]
  intro a
  match a with
  | ⟨0, _⟩ =>
    show win0_8.index t (0 : Fin 3) * 1024 ≤ (i 0).val ∧ (i 0).val < win0_8.index t (0 : Fin 3) * 1024 + 1024
    rw [e0, htv]; omega
  | ⟨1, _⟩ =>
    show win0_8.index t (1 : Fin 3) * 128 ≤ (i 1).val ∧ (i 1).val < win0_8.index t (1 : Fin 3) * 128 + 128
    rw [e1]; omega
  | ⟨2, _⟩ =>
    show win0_8.index t (2 : Fin 3) * 1 ≤ (i 2).val ∧ (i 2).val < win0_8.index t (2 : Fin 3) * 1 + 1
    rw [e2]; omega

/-- THE OUTPUT AFTER THE RUN is the map. -/
theorem final (c : Dev nD) : (dats m 0 c).arrAt 8 cfg0.N = result m c :=
  (dats m 0 c).arrAt_eq_of_cover 8 (result m c) (fun t _ => flushed_eq m c t) cover

end Cert.KernelIdeal.Item

end
-- ==== Proof.CrossEntity.lean ====
/-
  The second output of the kernel is the cross-compress map.

  At grid point t the body stores, into the block it writes back to this output, the block term of the kernel at the
  point's input blocks. Read entry by entry, with each input block's entries placed in their arrays, that is the
  cross-compress map of the two batches at the second and fourth weight columns and the second bias column restricted to rows
  1024 t … 1024 t + 1023. The 16 blocks tile the output (row r is in the block of point r / 1024), so after the last
  point the whole array holds the map.
-/
import proofs.«131935_j86655260164823_2_alg».proof.Proof.Gen.KernelIdeal.Value
import proofs.«131935_j86655260164823_2_alg».proof.Proof.CrossSpec
import proofs.«131935_j86655260164823_2_alg».proof.Proof.CrossBlock
import proofs.«131935_j86655260164823_2_alg».proof.Proof.CrossReads

noncomputable section

open scoped BigOperators

namespace Cert.KernelIdeal.Entity

open Cert.KernelIdeal Cert.KernelIdeal.Gen Cert.KernelIdeal.Reads Cert.Cross
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- What this output should hold: the cross-compress map of the two batches at the second and fourth weight columns and the second bias column. -/
abbrev result (c : Dev nD) : S16384x128x1.Idx → EReal :=
  cross (m ((c : Thread nD τ).loc main_arg0)) (m ((c : Thread nD τ).loc main_arg1))
    (m ((c : Thread nD τ).loc main_arg3)) (m ((c : Thread nD τ).loc main_arg5)) (m ((c : Thread nD τ).loc main_arg7))

/-- WHAT POINT t WRITES BACK is block t of the map. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero zero3]
  simp only [View.ld_unit_zero (S := S1024x128x1) zero3, View.ld_unit_zero (S := S128x1) zero2,
    View.ld_unit_zero (S := S1x128) zero2]
  refine funext fun (j : S1024x128x1.Idx) => ?_
  obtain ⟨p, q, u, rfl⟩ : ∃ (p : Fin 1024) (q : Fin 128) (u : Fin 1), j = ix3 p q u := ⟨j 0, j 1, j 2, eq_ix3 j⟩
  show k0_pay1 (F := Ideal) (k0_pay7 (F := Ideal) (iblk m c 0 t) (iblk m c 1 t) (iblk m c 3 t) (iblk m c 5 t))
        (iblk m c 7 t) (ix3 p q u)
      = result m c (((cfg0.win 9).blk t).view.emb (ix3 p q u))
  rw [emb_entity t p q u]
  refine (Cert.KernelIdeal.Block.block_apply (iblk m c 0 t) (iblk m c 1 t) (iblk m c 3 t) (iblk m c 5 t)
    (iblk m c 7 t) p q u).trans ?_
  show _ = crossAt _ _ _ _ _ (rowOf t p) q
  unfold crossAt
  simp only [read_v m c t, read_e m c t, read_w3 m c t, read_w5 m c t, read_bias_entity m c t]

/-- An index of the output is in point t's block iff each coordinate is in the block's range on its axis. -/
theorem mem_blk (t : Fin cfg0.N) (i : S16384x128x1.Idx) :
    i ∈ ((cfg0.win 9).blk t).view.set ↔ ∀ a : Fin 3, win0_9.index t a * S1024x128x1.size a ≤ (i a).val
      ∧ (i a).val < win0_9.index t a * S1024x128x1.size a + S1024x128x1.size a := by
  show i ∈ ((View.whole main_v2_1).slice (win0_9.rect t)).set ↔ _
  rw [View.set_slice_whole, Rect.mem_set_unit]
  exact Iff.rfl

/-- The blocks tile the output: row r lies in the block of point r / 1024. -/
theorem cover (i : S16384x128x1.Idx) :
    ∃ t : Fin cfg0.N, (cfg0.win 9).flush t = true ∧ i ∈ ((cfg0.win 9).blk t).view.set := by
  have hi0 : (i 0).val < 16384 := (i 0).isLt
  have hi1 : (i 1).val < 128 := (i 1).isLt
  have hi2 : (i 2).val < 1 := (i 2).isLt
  let t : Fin cfg0.N := ⟨(i 0).val / 1024, by rw [points]; omega⟩
  have htv : t.val = (i 0).val / 1024 := rfl
  obtain ⟨e0, e1, e2⟩ := idx_rows9 t
  refine ⟨t, flush0_9 t, ?_⟩
  rw [mem_blk]
  intro a
  match a with
  | ⟨0, _⟩ =>
    show win0_9.index t (0 : Fin 3) * 1024 ≤ (i 0).val ∧ (i 0).val < win0_9.index t (0 : Fin 3) * 1024 + 1024
    rw [e0, htv]; omega
  | ⟨1, _⟩ =>
    show win0_9.index t (1 : Fin 3) * 128 ≤ (i 1).val ∧ (i 1).val < win0_9.index t (1 : Fin 3) * 128 + 128
    rw [e1]; omega
  | ⟨2, _⟩ =>
    show win0_9.index t (2 : Fin 3) * 1 ≤ (i 2).val ∧ (i 2).val < win0_9.index t (2 : Fin 3) * 1 + 1
    rw [e2]; omega

/-- THE OUTPUT AFTER THE RUN is the map. -/
theorem final (c : Dev nD) : (dats m 0 c).arrAt 9 cfg0.N = result m c :=
  (dats m 0 c).arrAt_eq_of_cover 9 (result m c) (fun t _ => flushed_eq m c t) cover

end Cert.KernelIdeal.Entity

end
-- ==== Proof.lean ====
/-
  The cross-compress unit: a row-tiled kernel against its whole-array reference, equal on the extended reals.

  For two batches x, y : [16384, 128, 1], four weight columns and two bias columns [128, 1], both programs return

    out (b, d) = x (b, d) * (sum over k of y (b, k) * wa k) + y (b, d) * (sum over k of x (b, k) * wb k) + bias d

  twice: once at the first and third weight columns and the first bias, once at the second and fourth weight columns
  and the second bias. The kernel walks 16 blocks of 1024 rows; in each it takes the four matrix-vector products
  through the matrix unit into zero accumulators (the narrowing of the operands on the way in is the identity on the
  extended reals, and a product into a zero accumulator is the plain sum of products) and combines them entry by
  entry. The reference takes the same products over all 16384 rows at once. Row b of either result depends on row b
  of the two batches only, so the kernel's blocks are the reference's rows 1024 t … 1024 t + 1023 and tile the result.
  The two sides apply the same operations in the same order at every entry; no rearrangement of sums or products is
  needed, and the finiteness of the inputs is never used.

  The kernel's run with its outputs named, and the reference's run and its stages read at an index, are imported
  generated modules. Proved here and in the modules beside this one: the map itself (CrossSpec), that the reference's
  two results are it (CrossReference), the kernel's block term at an entry (CrossBlock), which array entries each
  block holds (CrossReads), that each output array ends holding the map (CrossItem, CrossEntity), and the claims.
-/
import proofs.«131935_j86655260164823_2_alg».proof.Defs
import proofs.«131935_j86655260164823_2_alg».proof.Proof.Gen.Kernel
import proofs.«131935_j86655260164823_2_alg».proof.Proof.Gen.Kernel.Skeleton
import proofs.«131935_j86655260164823_2_alg».proof.Proof.Gen.Kernel.Launch
import proofs.«131935_j86655260164823_2_alg».proof.Proof.Gen.Kernel.Points
import proofs.«131935_j86655260164823_2_alg».proof.Proof.Gen.Kernel.Frame
import proofs.«131935_j86655260164823_2_alg».proof.Proof.Gen.KernelIdeal
import proofs.«131935_j86655260164823_2_alg».proof.Proof.Gen.KernelIdeal.Skeleton
import proofs.«131935_j86655260164823_2_alg».proof.Proof.Gen.KernelIdeal.Launch
import proofs.«131935_j86655260164823_2_alg».proof.Proof.Gen.KernelIdeal.Points
import proofs.«131935_j86655260164823_2_alg».proof.Proof.Gen.KernelIdeal.Frame
import proofs.«131935_j86655260164823_2_alg».proof.Proof.Gen.ReferenceIdeal
import proofs.«131935_j86655260164823_2_alg».proof.Proof.Gen.Pre_finite_inputs
import proofs.«131935_j86655260164823_2_alg».proof.Proof.Gen.KernelIdeal.Value
import proofs.«131935_j86655260164823_2_alg».proof.Proof.Gen.ReferenceIdeal.Run
import proofs.«131935_j86655260164823_2_alg».proof.Proof.Gen.ReferenceIdeal.Read
import proofs.«131935_j86655260164823_2_alg».proof.Proof.CrossReference
import proofs.«131935_j86655260164823_2_alg».proof.Proof.CrossItem
import proofs.«131935_j86655260164823_2_alg».proof.Proof.CrossEntity
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- The kernel on the extended reals runs, and leaves its arguments as they were. -/
theorem frame_kernelIdeal : Cert.frame_KernelIdeal := fun m ρ _ => Cert.KernelIdeal.Gen.frame m ρ

/-- The reference runs, and leaves its arguments as they were: its run with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- Nothing of the kernel was rewritten on the way to the extended reals, so there is nothing to preserve. -/
theorem preserves : Cert.preserves_Kernel_KernelIdeal := trivial

/-- On the extended reals the kernel's two output arrays end holding the cross-compress map of its arguments at the
    two sets of weights and biases, and so do the reference's two results, from arguments that agree. -/
theorem algebraic : Cert.algebraic_KernelIdeal_ReferenceIdeal := by
  intro m ρ m' ρ' _ hagree
  refine ⟨fun c => Cert.KernelIdeal.Item.result m c, fun c => Cert.KernelIdeal.Entity.result m c, ?_, ?_⟩
  · exact (θ_run Cert.KernelIdeal.defs _ _).mono
      (fun r h c => ⟨(h c).1.trans (Cert.KernelIdeal.Item.final m c),
        (h c).2.1.trans (Cert.KernelIdeal.Entity.final m c), (h c).2.2⟩)
      (Cert.KernelIdeal.Value.run_blocks (F := Ideal) m ρ)
  · refine (θ_run Cert.ReferenceIdeal.defs _ _).mono (fun _ h c => ?_)
      (Cert.ReferenceIdeal.Value.run (F := Ideal) m' ρ')
    obtain ⟨a0, a1, a2, a3, a4, a5, a6, a7⟩ := hagree c
    refine ⟨(h c).1.trans ?_, (h c).2.1.trans ?_, (h c).2.2⟩
    · rw [Cert.ReferenceIdeal.Read.val_main_v14_eq, Cert.ReferenceIdeal.Cross.item_eq, a0, a1, a2, a4, a6]
    · rw [Cert.ReferenceIdeal.Read.val_main_v23_eq, Cert.ReferenceIdeal.Cross.entity_eq, a0, a1, a3, a5, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
